-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 108
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x64, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1700000x1, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x64, .f32⟩
  | .hbm, ⟨100, _⟩ => ⟨S1700000x1, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x64, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call2_cst : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run, with the final memory NAMED: from any launch memory with zero counters every weakly
  fair execution of @main terminates, nothing faulting, and every buffer that no region scopes ends holding what the
  last segment boundary holds — the fold of the four stretches of host operations and the four regions' write-backs
  over the launch memory. The frame certificate keeps of this only the argument arrays; a value claim also needs the
  result array, which is one more buffer read off the same final contents.
-/
import proofs.«132572_j12412455485983_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's ten segments, every unscoped buffer read against the final state: each ends at the contents
    of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The result array and the nine argument arrays, read off the final contents: the result holds what region 3's
    write-backs leave in its output window's array; no host operation and no region writes an argument. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)
    (run_all m ρ)

end Cert.KernelIdeal.Whole

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«132572_j12412455485983_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«132572_j12412455485983_1_alg».proof.Proof.LibPlainMatmul
import proofs.«132572_j12412455485983_1_alg».proof.Proof.LibPlainDot
import proofs.«132572_j12412455485983_1_alg».proof.Proof.LibHostRows
import proofs.«132572_j12412455485983_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibLayerForms.lean ====
/-
  Three identities on the extended reals between a pipelined kernel's row-block layers and a host program's spellings
  of the same layers, for any extents R, K, N:
    * a dense layer x · W + b whose bias row is zero is the plain product x · W (adding the zero word changes nothing);
    * max (a + b, 0) with the bias a vector reshaped to a [1, N] row is the host's "add the vector broadcast to every
      row, then the maximum with the zero matrix";
    * a dense layer x · W + b with the bias a reshaped vector is the host's product plus the vector broadcast to every
      row.
  Each is read entry by entry: both products are the same finite sum over the contracted axis, a broadcast row read at
  (r, g) is the vector at g, and the zero matrix read anywhere is the zero word.
-/
import proofs.«132572_j12412455485983_1_alg».proof.Proof.LibDenseLayers

noncomputable section

open scoped BigOperators

namespace Cert.LayerForms

open Idealize.ShloMosaic Idealize.ShloMosaic.ValueIdx Cert.SageLayers

variable {R K N : ℕ}

/-- Row r, column g of max (a + bias row, 0), as a whole matrix. -/
def reluRows (A : (⟨2, ![R, N]⟩ : Shape).Idx → EReal) (b : (⟨2, ![1, N]⟩ : Shape).Idx → EReal) :
    (⟨2, ![R, N]⟩ : Shape).Idx → EReal :=
  fun i => max (A i + b (ix2 (0 : Fin 1) (i 1))) zeroF

/-- A dense layer whose bias row is zero everywhere is the host's plain product. -/
theorem dense_zero_bias (A : FVec Ideal ⟨2, ![R, K]⟩ .f32) (W : FVec Ideal ⟨2, ![K, N]⟩ .f32)
    (z : (⟨2, ![1, N]⟩ : Shape).Idx → EReal) (hz : ∀ g : Fin N, z (ix2 (0 : Fin 1) g) = zeroF) :
    affLayer A W z = Host.dotGeneral (DotDims.plain R K N) none A W := by
  funext i
  obtain ⟨r, g, rfl⟩ : ∃ (r : Fin R) (g : Fin N), i = ix2 r g := ⟨i 0, i 1, eq_ix2 i⟩
  rw [host_dot_at]
  show (∑ k : Fin K, A (ix2 r k) * W (ix2 k g)) + z (ix2 (0 : Fin 1) g) = dotAt A W r g
  rw [hz g]
  show (∑ k : Fin K, A (ix2 r k) * W (ix2 k g)) + Ideal.ofBits .f32 0x00000000#32 = dotAt A W r g
  rw [Ideal.ofBits_zero_f32, add_zero]
  rfl

/-- max (a + b, 0) with the bias a reshaped vector is the host's spelling of it. -/
theorem relu_rows_host (A : FVec Ideal ⟨2, ![R, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank) (hb0 : (⟨0, ![]⟩ : Shape).BroadcastsInDim ⟨2, ![R, N]⟩ d0) :
    reluRows A (shapeCast ⟨2, ![1, N]⟩ b hc)
      = maximumf (addf A (broadcastInDim ⟨2, ![R, N]⟩ d2 hb2 (broadcastInDim ⟨2, ![1, N]⟩ d1 hb1 b)))
          (broadcastInDim ⟨2, ![R, N]⟩ d0 hb0 (constant (F := Ideal) ⟨0, ![]⟩ .f32 0x00000000#32)) := by
  funext i
  obtain ⟨r, g, rfl⟩ : ∃ (r : Fin R) (g : Fin N), i = ix2 r g := ⟨i 0, i 1, eq_ix2 i⟩
  rw [maximumf_apply, addf_apply, host_zero_at, Cert.LibHostRows.bcast_1b_ab_at d2 hd20 hd21 hb2 _ r g,
    row_of_vector b d1 hd1 hb1 hc]
  rfl

/-- A dense layer with the bias a reshaped vector is the host's product plus the broadcast vector. -/
theorem dense_host (A : FVec Ideal ⟨2, ![R, K]⟩ .f32) (W : FVec Ideal ⟨2, ![K, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    affLayer A W (shapeCast ⟨2, ![1, N]⟩ b hc)
      = addf (Host.dotGeneral (DotDims.plain R K N) none A W)
          (broadcastInDim ⟨2, ![R, N]⟩ d2 hb2 (broadcastInDim ⟨2, ![1, N]⟩ d1 hb1 b)) := by
  funext i
  obtain ⟨r, g, rfl⟩ : ∃ (r : Fin R) (g : Fin N), i = ix2 r g := ⟨i 0, i 1, eq_ix2 i⟩
  rw [host_affine_at A W b d1 hd1 hb1 d2 hd20 hd21 hb2 r g, row_of_vector b d1 hd1 hb1 hc]
  rfl

end Cert.LayerForms

end
-- ==== Proof.LibReluLayers.lean ====
/-
  Dense layers that rectify their biased input BEFORE the product, on the extended reals, for any extents R, K, N: the
  three dense layers of a two-layer graph convolution with a linear head.

  Layer 1 is the plain product  x · W.  Layer 2 rectifies its biased input first and multiplies after:
  max (a + b, 0) · W.  The head does the same and adds an output bias:  max (a + b, 0) · W + o.  A pipelined kernel
  spells each on a row block (operands narrowed to bf16, a product into the zero accumulator, biases kept as one-row
  blocks repeated down the rows); a host program spells each on the whole matrix (dot_general, bias vectors through two
  broadcast_in_dims, the maximum with a zero matrix).  On the extended reals a change of float format is the identity and
  both products are the same finite sum over the contracted axis, so all spellings read, entry by entry, as the same sums.
  An entry of any of these layers reads only ONE row of the row-indexed input.
-/
import proofs.«132572_j12412455485983_1_alg».proof.Proof.LibLayerForms

noncomputable section

open scoped BigOperators

namespace Cert.GcnDense

open Idealize.ShloMosaic Idealize.ShloMosaic.ValueIdx Cert.SageLayers Cert.LayerForms

variable {R K N : ℕ}

/-- The bias-free product h · W as a whole matrix. -/
def prodLayer (H : (⟨2, ![R, K]⟩ : Shape).Idx → EReal) (W : (⟨2, ![K, N]⟩ : Shape).Idx → EReal) :
    (⟨2, ![R, N]⟩ : Shape).Idx → EReal :=
  fun i => dotAt H W (i 0) (i 1)

/-- The host's dot_general is that product. -/
theorem prod_host (H : FVec Ideal ⟨2, ![R, K]⟩ .f32) (W : FVec Ideal ⟨2, ![K, N]⟩ .f32) :
    prodLayer H W = Host.dotGeneral (DotDims.plain R K N) none H W := by
  funext i
  obtain ⟨r, g, rfl⟩ : ∃ (r : Fin R) (g : Fin N), i = ix2 r g := ⟨i 0, i 1, eq_ix2 i⟩
  exact (host_dot_at H W r g).symm

/-- The rectified biased rows max (a + b, 0) in a kernel body's spelling: the block and the one-row bias through
    identity shape casts, the bias repeated down the rows, the maximum with a splat zero. -/
theorem body_reluRows (A : FVec Ideal ⟨2, ![R, K]⟩ .f32) (b : FVec Ideal ⟨2, ![1, K]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩) :
    maximumf (addf (shapeCast ⟨2, ![R, K]⟩ A hA) (broadcastTo ⟨2, ![R, K]⟩ (shapeCast ⟨2, ![1, K]⟩ b hb) hbc))
        (broadcast ⟨2, ![R, K]⟩ (Scalar.ofBits .f32 0x00000000#32 : Ideal .f32))
      = reluRows A b := by
  funext i
  obtain ⟨r, g, rfl⟩ : ∃ (r : Fin R) (g : Fin K), i = ix2 r g := ⟨i 0, i 1, eq_ix2 i⟩
  rw [maximumf_apply, addf_apply, shapeCast_self, Cert.LibBlockLayout.rowBroadcast_at, shapeCast_self]
  rfl

/-- Layer 2 in a kernel body's spelling, read at an entry. -/
theorem body_reluProd_at (A : FVec Ideal ⟨2, ![R, K]⟩ .f32) (b : FVec Ideal ⟨2, ![1, K]⟩ .f32)
    (W : FVec Ideal ⟨2, ![K, N]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩)
    (h1 : FTy.bf16.bits < FTy.f32.bits) (h2 : FTy.bf16.bits < FTy.f32.bits) (r : Fin R) (g : Fin N) :
    matmul (DotDims.plain R K N) none
        (truncf .bf16 (maximumf (addf (shapeCast ⟨2, ![R, K]⟩ A hA) (broadcastTo ⟨2, ![R, K]⟩ (shapeCast ⟨2, ![1, K]⟩ b hb) hbc))
          (broadcast ⟨2, ![R, K]⟩ (Scalar.ofBits .f32 0x00000000#32 : Ideal .f32))) h1)
        (truncf .bf16 W h2) (constant ⟨2, ![R, N]⟩ .f32 0x00000000#32) (ix2 r g)
      = dotAt (reluRows A b) W r g := by
  rw [body_reluRows A b hA hb hbc]
  exact kernel_dot_at (reluRows A b) W h1 h2 r g

/-- The head in a kernel body's spelling, read at an entry. -/
theorem body_reluAff_at (A : FVec Ideal ⟨2, ![R, K]⟩ .f32) (b : FVec Ideal ⟨2, ![1, K]⟩ .f32)
    (W : FVec Ideal ⟨2, ![K, N]⟩ .f32) (o : FVec Ideal ⟨2, ![1, N]⟩ .f32)
    (hA : (⟨2, ![R, K]⟩ : Shape).ShapeCasts ⟨2, ![R, K]⟩) (hb : (⟨2, ![1, K]⟩ : Shape).ShapeCasts ⟨2, ![1, K]⟩)
    (hbc : (⟨2, ![1, K]⟩ : Shape).Broadcasts ⟨2, ![R, K]⟩)
    (h1 : FTy.bf16.bits < FTy.f32.bits) (h2 : FTy.bf16.bits < FTy.f32.bits)
    (ho : (⟨2, ![1, N]⟩ : Shape).ShapeCasts ⟨2, ![1, N]⟩) (hoc : (⟨2, ![1, N]⟩ : Shape).Broadcasts ⟨2, ![R, N]⟩)
    (r : Fin R) (g : Fin N) :
    addf (matmul (DotDims.plain R K N) none
        (truncf .bf16 (maximumf (addf (shapeCast ⟨2, ![R, K]⟩ A hA) (broadcastTo ⟨2, ![R, K]⟩ (shapeCast ⟨2, ![1, K]⟩ b hb) hbc))
          (broadcast ⟨2, ![R, K]⟩ (Scalar.ofBits .f32 0x00000000#32 : Ideal .f32))) h1)
        (truncf .bf16 W h2) (constant ⟨2, ![R, N]⟩ .f32 0x00000000#32))
        (broadcastTo ⟨2, ![R, N]⟩ (shapeCast ⟨2, ![1, N]⟩ o ho) hoc) (ix2 r g)
      = affineAt (reluRows A b) W o r g := by
  rw [body_reluRows A b hA hb hbc]
  exact kernel_affine_at (reluRows A b) W o h1 h2 ho hoc r g

/-- An entry of the product reads one row of the left operand and one column of the right one. -/
theorem dotAt_rows {R' : ℕ} (H : (⟨2, ![R, K]⟩ : Shape).Idx → EReal) (H' : (⟨2, ![R', K]⟩ : Shape).Idx → EReal)
    (W W' : (⟨2, ![K, N]⟩ : Shape).Idx → EReal) (r : Fin R) (r' : Fin R') (g : Fin N)
    (hH : ∀ k : Fin K, H (ix2 r k) = H' (ix2 r' k)) (hW : ∀ k : Fin K, W (ix2 k g) = W' (ix2 k g)) :
    dotAt H W r g = dotAt H' W' r' g :=
  Finset.sum_congr rfl fun k _ => by rw [hH k, hW k]

/-- An entry of the rectified biased rows reads one entry of the input and one of the bias row. -/
theorem reluRows_at {R' : ℕ} (A : (⟨2, ![R, K]⟩ : Shape).Idx → EReal) (A' : (⟨2, ![R', K]⟩ : Shape).Idx → EReal)
    (b b' : (⟨2, ![1, K]⟩ : Shape).Idx → EReal) (r : Fin R) (r' : Fin R') (k : Fin K)
    (hA : A (ix2 r k) = A' (ix2 r' k)) (hb : b (ix2 (0 : Fin 1) k) = b' (ix2 (0 : Fin 1) k)) :
    reluRows A b (ix2 r k) = reluRows A' b' (ix2 r' k) := by
  show max (A (ix2 r k) + b (ix2 (0 : Fin 1) k)) zeroF = max (A' (ix2 r' k) + b' (ix2 (0 : Fin 1) k)) zeroF
  rw [hA, hb]

end Cert.GcnDense

end
-- ==== Proof.Region0.lean ====
/-
  Region 0 computes the first dense product. Its grid walks the 100000 rows of the node features in 50 blocks of
  2000 rows; at each point the body multiplies the point's 2000×128 block of rows by the whole 128×128 weight matrix
  (both narrowed to bf16, which changes nothing on the extended reals) into a zero accumulator, and the block is written
  back to rows 2000·t … 2000·t + 1999 of the output. An entry of a matrix product reads one row of the left factor, so
  block t of the whole product x · W is the product of block t of x with W: the 50 write-backs tile the output array and
  leave it holding x · W, whatever the region found in its two input arrays.
-/
import proofs.«132572_j12412455485983_1_alg».proof.Proof.Gen.KernelIdeal.Frame
import proofs.«132572_j12412455485983_1_alg».proof.Proof.LibReluLayers

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The grid has 50 points. -/
theorem point_lt (t : Fin cfg0.N) : t.val < 50 := lt_of_lt_of_eq t.isLt N_0

/-- The body's stored value at an entry: row r of the loaded block against column g of the loaded weights. -/
theorem body_at (x0 : FVec Ideal S2000x128 .f32) (x1 : FVec Ideal S128x128 .f32) (r : Fin 2000) (g : Fin 128) :
    k0_pay1 (F := Ideal) x0 x1 (ix2 r g) = dotAt x0 x1 r g := by
  unfold k0_pay1
  exact kernel_dot_at x0 x1 _ _ r g

/-- The printed index maps over the grid: the row-block windows sit at block t of the rows, the weights at block 0. -/
theorem index_maps : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Entry (r, g) of the output block at point t is entry (2000 t + r, g) of the output array. -/
theorem out_pos (t : Fin cfg0.N) (r : Fin 2000) (g : Fin 128) :
    ((cfg0.win 2).blk t).view.emb (ix2 r g)
      = ix2 (⟨t.val * 2000 + r.val, by have := point_lt t; omega⟩ : Fin 100000) g := by
  obtain ⟨e0, e1, -⟩ := index_maps t
  funext a; apply Fin.ext
  match a with
  | ⟨0, _⟩ => show win0_2.index t (0 : Fin 2) * 2000 + 1 * r.val = t.val * 2000 + r.val; rw [e0]; omega
  | ⟨1, _⟩ => show win0_2.index t (1 : Fin 2) * 128 + 1 * g.val = g.val; rw [e1]; omega

/-- Entry (r, k) of the rows' block at point t is entry (2000 t + r, k) of the rows' array. -/
theorem rows_at (c : Dev nD) (t : Fin cfg0.N) (r : Fin 2000) (k : Fin 128) :
    iblk0 V c 0 t (ix2 r k)
      = V c main_arg0 (ix2 (⟨t.val * 2000 + r.val, by have := point_lt t; omega⟩ : Fin 100000) k) := by
  obtain ⟨-, -, e0, e1, -⟩ := index_maps t
  show V c main_arg0 (((cfg0.win 0).blk t).view.emb (ix2 r k)) = _
  refine congrArg _ ?_
  funext a; apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- The weights' block at every point is the whole weight matrix. -/
theorem weights_at (c : Dev nD) (t : Fin cfg0.N) (k : Fin 128) (g : Fin 128) :
    iblk0 V c 1 t (ix2 k g) = V c main_arg3 (ix2 k g) := by
  obtain ⟨-, -, -, -, e0, e1⟩ := index_maps t
  show V c main_arg3 (((cfg0.win 1).blk t).view.emb (ix2 k g)) = _
  refine congrArg _ ?_
  funext a; apply Fin.ext
  match a with
  | ⟨0, _⟩ => show win0_1.index t (0 : Fin 2) * 128 + 1 * k.val = k.val; rw [e0]; omega
  | ⟨1, _⟩ => show win0_1.index t (1 : Fin 2) * 128 + 1 * g.val = g.val; rw [e1]; omega

/-- What point t writes back is block t of the whole product. -/
theorem flushed_eq (c : Dev nD) (t : Fin cfg0.N) :
    (dat0 (F := Ideal) V c).flushed 2 t
      = ((cfg0.win 2).blk t).view.read (Elt Ideal) (prodLayer (V c main_arg0) (V c main_arg3)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  funext j
  obtain ⟨r, g, rfl⟩ : ∃ (r : Fin 2000) (g : Fin 128), j = ix2 r g := ⟨j 0, j 1, eq_ix2 j⟩
  show k0_pay1 (iblk0 V c 0 t) (iblk0 V c 1 t) (ix2 r g)
    = prodLayer (V c main_arg0) (V c main_arg3) (((cfg0.win 2).blk t).view.emb (ix2 r g))
  rw [out_pos t r g]
  refine (body_at (iblk0 V c 0 t) (iblk0 V c 1 t) r g).trans ?_
  exact dotAt_rows (iblk0 V c 0 t) (V c main_arg0) (iblk0 V c 1 t) (V c main_arg3) r _ g
    (fun k => rows_at V c t r k) (fun k => weights_at V c t k g)

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- Row i of the output lies in the block of point i / 2000: the 50 blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, -⟩ := index_maps t
  have e0' : win0_2.index t (0 : Fin 2) = (i 0).val / 2000 := e0
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e0']; omega
  | ⟨1, _⟩ =>
    show win0_2.index t (1 : Fin 2) * 128 ≤ (i 1).val ∧ (i 1).val < win0_2.index t (1 : Fin 2) * 128 + 128
    rw [e1]; omega

/-- The output array after the region: the whole product of the two input arrays as the region found them. -/
theorem final (c : Dev nD) :
    (dat0 (F := Ideal) V c).arrAt 2 cfg0.N = prodLayer (V c main_arg0) (V c main_arg3) :=
  (dat0 V c).arrAt_eq_of_cover 2 _ (fun t _ => flushed_eq V c t) cover

end Cert.KernelIdeal.Layer0

end
-- ==== Proof.Region1.lean ====
/-
  Region 1 computes the second dense layer, max(a + b, 0) · W. Its grid walks the 100000 rows of the aggregated
  features in 50 blocks of 2000 rows; at each point the body adds the one-row bias to every row of the point's block,
  rectifies, and multiplies by the whole 128×128 weight matrix (both factors narrowed to bf16, which changes nothing on
  the extended reals) into a zero accumulator; the block is written back to rows 2000·t … 2000·t + 1999 of the output.
  Rectifying a biased row reads that row alone and an entry of a product reads one row of its left factor, so block t of
  the whole layer is the layer of block t: the 50 write-backs tile the output array and leave it holding
  max(a + b, 0) · W, whatever the region found in its three input arrays.
-/
import proofs.«132572_j12412455485983_1_alg».proof.Proof.Gen.KernelIdeal.Frame
import proofs.«132572_j12412455485983_1_alg».proof.Proof.LibReluLayers

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The grid has 50 points. -/
theorem point_lt (t : Fin cfg1.N) : t.val < 50 := lt_of_lt_of_eq t.isLt N_1

/-- The body's stored value at an entry: row r of the rectified biased block against column g of the weights. -/
theorem body_at (x0 : FVec Ideal S2000x128 .f32) (x1 : FVec Ideal S1x128 .f32) (x2 : FVec Ideal S128x128 .f32)
    (r : Fin 2000) (g : Fin 128) :
    k1_pay1 (F := Ideal) x0 x1 x2 (ix2 r g) = dotAt (reluRows x0 x1) x2 r g := by
  unfold k1_pay1
  exact body_reluProd_at x0 x1 x2 _ _ _ _ _ r g

/-- The printed index maps over the grid: the row-block windows sit at block t of the rows; the bias row and the
    weights at block 0. -/
theorem index_maps : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Entry (r, g) of the output block at point t is entry (2000 t + r, g) of the output array. -/
theorem out_pos (t : Fin cfg1.N) (r : Fin 2000) (g : Fin 128) :
    ((cfg1.win 3).blk t).view.emb (ix2 r g)
      = ix2 (⟨t.val * 2000 + r.val, by have := point_lt t; omega⟩ : Fin 100000) g := by
  obtain ⟨e0, e1, -⟩ := index_maps t
  funext a; apply Fin.ext
  match a with
  | ⟨0, _⟩ => show win1_3.index t (0 : Fin 2) * 2000 + 1 * r.val = t.val * 2000 + r.val; rw [e0]; omega
  | ⟨1, _⟩ => show win1_3.index t (1 : Fin 2) * 128 + 1 * g.val = g.val; rw [e1]; omega

/-- Entry (r, k) of the rows' block at point t is entry (2000 t + r, k) of the rows' array. -/
theorem rows_at (c : Dev nD) (t : Fin cfg1.N) (r : Fin 2000) (k : Fin 128) :
    iblk1 V c 0 t (ix2 r k)
      = V c main_v46 (ix2 (⟨t.val * 2000 + r.val, by have := point_lt t; omega⟩ : Fin 100000) k) := by
  obtain ⟨-, -, e0, e1, -⟩ := index_maps t
  show V c main_v46 (((cfg1.win 0).blk t).view.emb (ix2 r k)) = _
  refine congrArg _ ?_
  funext a; apply Fin.ext
  match a with
  | ⟨0, _⟩ => show win1_0.index t (0 : Fin 2) * 2000 + 1 * r.val = t.val * 2000 + r.val; rw [e0]; omega
  | ⟨1, _⟩ => show win1_0.index t (1 : Fin 2) * 128 + 1 * k.val = k.val; rw [e1]; omega

/-- The bias window's block at every point is the whole one-row bias. -/
theorem bias_at (c : Dev nD) (t : Fin cfg1.N) (k : Fin 128) :
    iblk1 V c 1 t (ix2 (0 : Fin 1) k) = V c main_v47 (ix2 (0 : Fin 1) k) := by
  obtain ⟨-, -, -, -, e0, e1, -⟩ := index_maps t
  show V c main_v47 (((cfg1.win 1).blk t).view.emb (ix2 (0 : Fin 1) k)) = _
  refine congrArg _ ?_
  funext a; apply Fin.ext
  match a with
  | ⟨0, _⟩ => show win1_1.index t (0 : Fin 2) * 1 + 1 * (0 : Fin 1).val = (0 : Fin 1).val; rw [e0]; omega
  | ⟨1, _⟩ => show win1_1.index t (1 : Fin 2) * 128 + 1 * k.val = k.val; rw [e1]; omega

/-- The weights' block at every point is the whole weight matrix. -/
theorem weights_at (c : Dev nD) (t : Fin cfg1.N) (k : Fin 128) (g : Fin 128) :
    iblk1 V c 2 t (ix2 k g) = V c main_arg5 (ix2 k g) := by
  obtain ⟨-, -, -, -, -, -, e0, e1⟩ := index_maps t
  show V c main_arg5 (((cfg1.win 2).blk t).view.emb (ix2 k g)) = _
  refine congrArg _ ?_
  funext a; apply Fin.ext
  match a with
  | ⟨0, _⟩ => show win1_2.index t (0 : Fin 2) * 128 + 1 * k.val = k.val; rw [e0]; omega
  | ⟨1, _⟩ => show win1_2.index t (1 : Fin 2) * 128 + 1 * g.val = g.val; rw [e1]; omega

/-- What point t writes back is block t of the whole layer. -/
theorem flushed_eq (c : Dev nD) (t : Fin cfg1.N) :
    (dat1 (F := Ideal) V c).flushed 3 t
      = ((cfg1.win 3).blk t).view.read (Elt Ideal)
          (prodLayer (reluRows (V c main_v46) (V c main_v47)) (V c main_arg5)) := by
  show (cfg1.win 3).cut (grid1.coords t) ((dat1 V c).after 3 t) = _
  rw [after1_3]
  unfold out1_3
  rw [View.canon_unit_zero origin]
  simp only [View.ld_unit_zero (S := S2000x128) origin, View.ld_unit_zero (S := S1x128) origin,
    View.ld_unit_zero (S := S128x128) origin]
  funext j
  obtain ⟨r, g, rfl⟩ : ∃ (r : Fin 2000) (g : Fin 128), j = ix2 r g := ⟨j 0, j 1, eq_ix2 j⟩
  show k1_pay1 (iblk1 V c 0 t) (iblk1 V c 1 t) (iblk1 V c 2 t) (ix2 r g)
    = prodLayer (reluRows (V c main_v46) (V c main_v47)) (V c main_arg5) (((cfg1.win 3).blk t).view.emb (ix2 r g))
  rw [out_pos t r g]
  refine (body_at (iblk1 V c 0 t) (iblk1 V c 1 t) (iblk1 V c 2 t) r g).trans ?_
  exact dotAt_rows (reluRows (iblk1 V c 0 t) (iblk1 V c 1 t)) (reluRows (V c main_v46) (V c main_v47))
    (iblk1 V c 2 t) (V c main_arg5) r _ g
    (fun k => reluRows_at (iblk1 V c 0 t) (V c main_v46) (iblk1 V c 1 t) (V c main_v47) r _ k
      (rows_at V c t r k) (bias_at V c t k))
    (fun k => weights_at V c t k g)

/-- An index of the output array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v48).slice (win1_3.rect t)).set ↔ _
  rw [View.set_slice_whole, Rect.mem_set_unit]
  exact Iff.rfl

/-- Row i of the output lies in the block of point i / 2000: the 50 blocks tile the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨e0, e1, -⟩ := index_maps t
  have e0' : win1_3.index t (0 : Fin 2) = (i 0).val / 2000 := e0
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    rw [e0']; omega
  | ⟨1, _⟩ =>
    show win1_3.index t (1 : Fin 2) * 128 ≤ (i 1).val ∧ (i 1).val < win1_3.index t (1 : Fin 2) * 128 + 128
    rw [e1]; omega

/-- The output array after the region: the layer applied to the three input arrays as the region found them. -/
theorem final (c : Dev nD) :
    (dat1 (F := Ideal) V c).arrAt 3 cfg1.N
      = prodLayer (reluRows (V c main_v46) (V c main_v47)) (V c main_arg5) :=
  (dat1 V c).arrAt_eq_of_cover 3 _ (fun t _ => flushed_eq V c t) cover

end Cert.KernelIdeal.Layer1

end
-- ==== Proof.Region2.lean ====
/-
  Region 2 computes the third dense layer, max(a + b, 0) · W, into 64 columns. Its grid walks the 100000 rows of the
  aggregated features in 50 blocks of 2000 rows; at each point the body adds the one-row bias to every row of the
  point's block, rectifies, and multiplies by the whole 128×64 weight matrix (both factors narrowed to bf16, which
  changes nothing on the extended reals) into a zero accumulator; the block is written back to rows
  2000·t … 2000·t + 1999 of the output. Rectifying a biased row reads that row alone and an entry of a product reads one
  row of its left factor, so block t of the whole layer is the layer of block t: the 50 write-backs tile the output
  array and leave it holding max(a + b, 0) · W, whatever the region found in its three input arrays.
-/
import proofs.«132572_j12412455485983_1_alg».proof.Proof.Gen.KernelIdeal.Frame
import proofs.«132572_j12412455485983_1_alg».proof.Proof.LibReluLayers

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Cert.SageLayers Cert.LayerForms Cert.GcnDense

variable (V : (c : Dev nD) → (b : Ref sig .tc) → Buf (Elt Ideal) ((c : Thread nD τ).loc b))

theorem origin : (![0, 0] : Fin 2 → Nat) = fun _ => 0 := funext fun a => by fin_cases a <;> rfl

/-- The grid has 50 points. -/
theorem point_lt (t : Fin cfg2.N) : t.val < 50 := lt_of_lt_of_eq t.isLt N_2

/-- The body's stored value at an entry: row r of the rectified biased block against column g of the weights. -/
theorem body_at (x0 : FVec Ideal S2000x128 .f32) (x1 : FVec Ideal S1x128 .f32) (x2 : FVec Ideal S128x64 .f32)
    (r : Fin 2000) (g : Fin 64) :
    k2_pay1 (F := Ideal) x0 x1 x2 (ix2 r g) = dotAt (reluRows x0 x1) x2 r g := by
  unfold k2_pay1
  exact body_reluProd_at x0 x1 x2 _ _ _ _ _ r g

/-- The printed index maps over the grid: the row-block windows sit at block t of the rows; the bias row and the
    weights at block 0. -/
theorem index_maps : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Entry (r, g) of the output block at point t is entry (2000 t + r, g) of the output array. -/
theorem out_pos (t : Fin cfg2.N) (r : Fin 2000) (g : Fin 64) :
    ((cfg2.win 3).blk t).view.emb (ix2 r g)
      = ix2 (⟨t.val * 2000 + r.val, by have := point_lt t; omega⟩ : Fin 100000) g := by
  obtain ⟨e0, e1, -⟩ := index_maps t
  funext a; apply Fin.ext
  match a with
  | ⟨0, _⟩ => show win2_3.index t (0 : Fin 2) * 2000 + 1 * r.val = t.val * 2000 + r.val; rw [e0]; omega
  | ⟨1, _⟩ => show win2_3.index t (1 : Fin 2) * 64 + 1 * g.val = g.val; rw [e1]; omega

/-- Entry (r, k) of the rows' block at point t is entry (2000 t + r, k) of the rows' array. -/
theorem rows_at (c : Dev nD) (t : Fin cfg2.N) (r : Fin 2000) (k : Fin 128) :
    iblk2 V c 0 t (ix2 r k)
      = V c main_v61 (ix2 (⟨t.val * 2000 + r.val, by have := point_lt t; omega⟩ : Fin 100000) k) := by
  obtain ⟨-, -, e0, e1, -⟩ := index_maps t
  show V c main_v61 (((cfg2.win 0).blk t).view.emb (ix2 r k)) = _
  refine congrArg _ ?_
  funext a; apply Fin.ext
  match a with
  | ⟨0, _⟩ => show win2_0.index t (0 : Fin 2) * 2000 + 1 * r.val = t.val * 2000 + r.val; rw [e0]; omega
  | ⟨1, _⟩ => show win2_0.index t (1 : Fin 2) * 128 + 1 * k.val = k.val; rw [e1]; omega

/-- The bias window's block at every point is the whole one-row bias. -/
theorem bias_at (c : Dev nD) (t : Fin cfg2.N) (k : Fin 128) :
    iblk2 V c 1 t (ix2 (0 : Fin 1) k) = V c main_v62 (ix2 (0 : Fin 1) k) := by
  obtain ⟨-, -, -, -, e0, e1, -⟩ := index_maps t
  show V c main_v62 (((cfg2.win 1).blk t).view.emb (ix2 (0 : Fin 1) k)) = _
  refine congrArg _ ?_
  funext a; apply Fin.ext
  match a with
  | ⟨0, _⟩ => show win2_1.index t (0 : Fin 2) * 1 + 1 * (0 : Fin 1).val = (0 : Fin 1).val; rw [e0]; omega
  | ⟨1, _⟩ => show win2_1.index t (1 : Fin 2) * 128 + 1 * k.val = k.val; rw [e1]; omega

/-- The weights' block at every point is the whole weight matrix. -/
theorem weights_at (c : Dev nD) (t : Fin cfg2.N) (k : Fin 128) (g : Fin 64) :
    iblk2 V c 2 t (ix2 k g) = V c main_arg7 (ix2 k g) := by
  obtain ⟨-, -, -, -, -, -, e0, e1⟩ := index_maps t
  show V c main_arg7 (((cfg2.win 2).blk t).view.emb (ix2 k g)) = _
  refine congrArg _ ?_
  funext a; apply Fin.ext
  match a with
  | ⟨0, _⟩ => show win2_2.index t (0 : Fin 2) * 128 + 1 * k.val = k.val; rw [e0]; omega
  | ⟨1, _⟩ => show win2_2.index t (1 : Fin 2) * 64 + 1 * g.val = g.val; rw [e1]; omega

/-- What point t writes back is block t of the whole layer. -/
theorem flushed_eq (c : Dev nD) (t : Fin cfg2.N) :
    (dat2 (F := Ideal) V c).flushed 3 t
      = ((cfg2.win 3).blk t).view.read (Elt Ideal)
          (prodLayer (reluRows (V c main_v61) (V c main_v62)) (V c main_arg7)) := by
  show (cfg2.win 3).cut (grid2.coords t) ((dat2 V c).after 3 t) = _
  rw [after2_3]
  unfold out2_3
  rw [View.canon_unit_zero origin]
  simp only [View.ld_unit_zero (S := S2000x128) origin, View.ld_unit_zero (S := S1x128) origin,
    View.ld_unit_zero (S := S128x64) origin]
  funext j
  obtain ⟨r, g, rfl⟩ : ∃ (r : Fin 2000) (g : Fin 64), j = ix2 r g := ⟨j 0, j 1, eq_ix2 j⟩
  show k2_pay1 (iblk2 V c 0 t) (iblk2 V c 1 t) (iblk2 V c 2 t) (ix2 r g)
    = prodLayer (reluRows (V c main_v61) (V c main_v62)) (V c main_arg7) (((cfg2.win 3).blk t).view.emb (ix2 r g))
  rw [out_pos t r g]
  refine (body_at (iblk2 V c 0 t) (iblk2 V c 1 t) (iblk2 V c 2 t) r g).trans ?_
  exact dotAt_rows (reluRows (iblk2 V c 0 t) (iblk2 V c 1 t)) (reluRows (V c main_v61) (V c main_v62))
    (iblk2 V c 2 t) (V c main_arg7) r _ g
    (fun k => reluRows_at (iblk2 V c 0 t) (V c main_v61) (iblk2 V c 1 t) (V c main_v62) r _ k
      (rows_at V c t r k) (bias_at V c t k))
    (fun k => weights_at V c t k g)

/-- An index of the output array is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v63).slice (win2_3.rect t)).set ↔ _
  rw [View.set_slice_whole, Rect.mem_set_unit]
  exact Iff.rfl

/-- Row i of the output lies in the block of point i / 2000: the 50 blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨e0, e1, -⟩ := index_maps t
  have e0' : win2_3.index t (0 : Fin 2) = (i 0).val / 2000 := e0
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    rw [e0']; omega
  | ⟨1, _⟩ =>
    show win2_3.index t (1 : Fin 2) * 64 ≤ (i 1).val ∧ (i 1).val < win2_3.index t (1 : Fin 2) * 64 + 64
    rw [e1]; omega

/-- The output array after the region: the layer applied to the three input arrays as the region found them. -/
theorem final (c : Dev nD) :
    (dat2 (F := Ideal) V c).arrAt 3 cfg2.N
      = prodLayer (reluRows (V c main_v61) (V c main_v62)) (V c main_arg7) :=
  (dat2 V c).arrAt_eq_of_cover 3 _ (fun t _ => flushed_eq V c t) cover

end Cert.KernelIdeal.Layer2

end
-- ==== Proof.LibBiasRows.lean ====
/-
  A matrix plus a one-row bias repeated down its rows, on the extended reals, for any extents R and N: entry (r, g) of
  the result is the matrix's entry (r, g) plus the bias row's entry (0, g).

  The whole-matrix function `biasRows`; that an entry of it reads one entry of the matrix and one of the bias row
  (`biasRows_at`); a pipelined kernel body's spelling of it on a row block, the block and the one-row bias through
  identity shape casts and the bias repeated down the rows by a broadcast (`body_biasRows`); and a host program's
  spelling, the bias a vector made a [1, N] row by a broadcast_in_dim along axis 1 and repeated down the rows by a
  second broadcast_in_dim, against the same vector reshaped to a row (`host_biasRows`).
-/
import proofs.«132572_j12412455485983_1_alg».proof.Proof.LibDenseLayers

noncomputable section

namespace Cert.LibBiasRows

open Idealize.ShloMosaic Idealize.ShloMosaic.ValueIdx

variable {R N : ℕ}

/-- A matrix plus a one-row bias repeated down its rows, as a whole matrix. -/
def biasRows (A : (⟨2, ![R, N]⟩ : Shape).Idx → EReal) (b : (⟨2, ![1, N]⟩ : Shape).Idx → EReal) :
    (⟨2, ![R, N]⟩ : Shape).Idx → EReal :=
  fun i => A i + b (ix2 (0 : Fin 1) (i 1))

/-- An entry of it reads one entry of the matrix and one of the bias row. -/
theorem biasRows_at {R' : ℕ} (A : (⟨2, ![R, N]⟩ : Shape).Idx → EReal) (A' : (⟨2, ![R', N]⟩ : Shape).Idx → EReal)
    (b b' : (⟨2, ![1, N]⟩ : Shape).Idx → EReal) (r : Fin R) (r' : Fin R') (g : Fin N)
    (hA : A (ix2 r g) = A' (ix2 r' g)) (hb : b (ix2 (0 : Fin 1) g) = b' (ix2 (0 : Fin 1) g)) :
    biasRows A b (ix2 r g) = biasRows A' b' (ix2 r' g) := by
  show A (ix2 r g) + b (ix2 (0 : Fin 1) g) = A' (ix2 r' g) + b' (ix2 (0 : Fin 1) g)
  rw [hA, hb]

/-- A kernel body's spelling: the block and the one-row bias through identity shape casts, the bias repeated down the
    rows, the two added. -/
theorem body_biasRows (A : FVec Ideal ⟨2, ![R, N]⟩ .f32) (b : FVec Ideal ⟨2, ![1, N]⟩ .f32)
    (hA : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    addf (shapeCast ⟨2, ![R, N]⟩ A hA) (broadcastTo ⟨2, ![R, N]⟩ (shapeCast ⟨2, ![1, N]⟩ b hb) hbc) = biasRows A b := by
  funext i
  obtain ⟨r, g, rfl⟩ : ∃ (r : Fin R) (g : Fin N), i = ix2 r g := ⟨i 0, i 1, eq_ix2 i⟩
  rw [addf_apply, shapeCast_self, Cert.LibBlockLayout.rowBroadcast_at, shapeCast_self]
  rfl

/-- A host program's spelling, the bias given as a vector: the vector made a row along axis 1, the row repeated down
    the rows, the two added; the row is the vector reshaped. -/
theorem host_biasRows (A : FVec Ideal ⟨2, ![R, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    biasRows A (shapeCast ⟨2, ![1, N]⟩ b hc)
      = addf A (broadcastInDim ⟨2, ![R, N]⟩ d2 hb2 (broadcastInDim ⟨2, ![1, N]⟩ d1 hb1 b)) := by
  funext i
  obtain ⟨r, g, rfl⟩ : ∃ (r : Fin R) (g : Fin N), i = ix2 r g := ⟨i 0, i 1, eq_ix2 i⟩
  rw [addf_apply, Cert.LibHostRows.bcast_1b_ab_at d2 hd20 hd21 hb2 _ r g,
    Cert.SageLayers.row_of_vector b d1 hd1 hb1 hc]
  rfl

end Cert.LibBiasRows

end
-- ==== Proof.Region3.lean ====
/-
  Region 3 adds the output bias. Its grid walks the 100000 rows of the last aggregation in 50 blocks of 2000 rows; at
  each point the body adds the one-row bias to every row of the point's 2000×64 block and the block is written back to
  rows 2000·t … 2000·t + 1999 of the result. Adding the bias row to a row reads that row alone, so the 50 write-backs
  tile the result array and leave it holding, at (n, g), the aggregation at (n, g) plus the bias at g, whatever the
  region found in its two input arrays.
-/
import proofs.«132572_j12412455485983_1_alg».proof.Proof.Gen.KernelIdeal.Frame
import proofs.«132572_j12412455485983_1_alg».proof.Proof.LibBiasRows

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Cert.LibBiasRows

variable (V : (c : Dev nD) → (b : Ref sig .tc) → Buf (Elt Ideal) ((c : Thread nD τ).loc b))

theorem origin : (![0, 0] : Fin 2 → Nat) = fun _ => 0 := funext fun a => by fin_cases a <;> rfl

/-- The grid has 50 points. -/
theorem point_lt (t : Fin cfg3.N) : t.val < 50 := lt_of_lt_of_eq t.isLt N_3

/-- The body's stored value at an entry: the loaded block's entry plus the bias row's entry of that column. -/
theorem body_at (x0 : FVec Ideal S2000x64 .f32) (x1 : FVec Ideal S1x64 .f32) (r : Fin 2000) (g : Fin 64) :
    k3_pay1 (F := Ideal) x0 x1 (ix2 r g) = biasRows x0 x1 (ix2 r g) := by
  unfold k3_pay1
  exact congrFun (body_biasRows x0 x1 _ _ _) (ix2 r g)

/-- The printed index maps over the grid: the row-block windows sit at block t of the rows, the bias row at block 0. -/
theorem index_maps : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- Entry (r, g) of the output block at point t is entry (2000 t + r, g) of the result array. -/
theorem out_pos (t : Fin cfg3.N) (r : Fin 2000) (g : Fin 64) :
    ((cfg3.win 2).blk t).view.emb (ix2 r g)
      = ix2 (⟨t.val * 2000 + r.val, by have := point_lt t; omega⟩ : Fin 100000) g := by
  obtain ⟨e0, e1, -⟩ := index_maps t
  funext a; apply Fin.ext
  match a with
  | ⟨0, _⟩ => show win3_2.index t (0 : Fin 2) * 2000 + 1 * r.val = t.val * 2000 + r.val; rw [e0]; omega
  | ⟨1, _⟩ => show win3_2.index t (1 : Fin 2) * 64 + 1 * g.val = g.val; rw [e1]; omega

/-- Entry (r, g) of the rows' block at point t is entry (2000 t + r, g) of the rows' array. -/
theorem rows_at (c : Dev nD) (t : Fin cfg3.N) (r : Fin 2000) (g : Fin 64) :
    iblk3 V c 0 t (ix2 r g)
      = V c main_v76 (ix2 (⟨t.val * 2000 + r.val, by have := point_lt t; omega⟩ : Fin 100000) g) := by
  obtain ⟨-, -, e0, e1, -⟩ := index_maps t
  show V c main_v76 (((cfg3.win 0).blk t).view.emb (ix2 r g)) = _
  refine congrArg _ ?_
  funext a; apply Fin.ext
  match a with
  | ⟨0, _⟩ => show win3_0.index t (0 : Fin 2) * 2000 + 1 * r.val = t.val * 2000 + r.val; rw [e0]; omega
  | ⟨1, _⟩ => show win3_0.index t (1 : Fin 2) * 64 + 1 * g.val = g.val; rw [e1]; omega

/-- The bias window's block at every point is the whole one-row bias. -/
theorem bias_at (c : Dev nD) (t : Fin cfg3.N) (g : Fin 64) :
    iblk3 V c 1 t (ix2 (0 : Fin 1) g) = V c main_v77 (ix2 (0 : Fin 1) g) := by
  obtain ⟨-, -, -, -, e0, e1⟩ := index_maps t
  show V c main_v77 (((cfg3.win 1).blk t).view.emb (ix2 (0 : Fin 1) g)) = _
  refine congrArg _ ?_
  funext a; apply Fin.ext
  match a with
  | ⟨0, _⟩ => show win3_1.index t (0 : Fin 2) * 1 + 1 * (0 : Fin 1).val = (0 : Fin 1).val; rw [e0]; omega
  | ⟨1, _⟩ => show win3_1.index t (1 : Fin 2) * 64 + 1 * g.val = g.val; rw [e1]; omega

/-- What point t writes back is block t of the biased matrix. -/
theorem flushed_eq (c : Dev nD) (t : Fin cfg3.N) :
    (dat3 (F := Ideal) V c).flushed 2 t
      = ((cfg3.win 2).blk t).view.read (Elt Ideal) (biasRows (V c main_v76) (V c main_v77)) := by
  show (cfg3.win 2).cut (grid3.coords t) ((dat3 V c).after 2 t) = _
  rw [after3_2]
  unfold out3_2
  rw [View.canon_unit_zero origin]
  simp only [View.ld_unit_zero (S := S2000x64) origin, View.ld_unit_zero (S := S1x64) origin]
  funext j
  obtain ⟨r, g, rfl⟩ : ∃ (r : Fin 2000) (g : Fin 64), j = ix2 r g := ⟨j 0, j 1, eq_ix2 j⟩
  show k3_pay1 (iblk3 V c 0 t) (iblk3 V c 1 t) (ix2 r g)
    = biasRows (V c main_v76) (V c main_v77) (((cfg3.win 2).blk t).view.emb (ix2 r g))
  rw [out_pos t r g]
  refine (body_at (iblk3 V c 0 t) (iblk3 V c 1 t) r g).trans ?_
  exact biasRows_at (iblk3 V c 0 t) (V c main_v76) (iblk3 V c 1 t) (V c main_v77) r _ g
    (rows_at V c t r g) (bias_at V c t g)

/-- An index of the result array is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v78).slice (win3_2.rect t)).set ↔ _
  rw [View.set_slice_whole, Rect.mem_set_unit]
  exact Iff.rfl

/-- Row i of the result lies in the block of point i / 2000: the 50 blocks tile the array. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨e0, e1, -⟩ := index_maps t
  have e0' : win3_2.index t (0 : Fin 2) = (i 0).val / 2000 := e0
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    rw [e0']; omega
  | ⟨1, _⟩ =>
    show win3_2.index t (1 : Fin 2) * 64 ≤ (i 1).val ∧ (i 1).val < win3_2.index t (1 : Fin 2) * 64 + 64
    rw [e1]; omega

/-- The result array after the region: the biased matrix of the two input arrays as the region found them. -/
theorem final (c : Dev nD) :
    (dat3 (F := Ideal) V c).arrAt 2 cfg3.N = biasRows (V c main_v76) (V c main_v77) :=
  (dat3 V c).arrAt_eq_of_cover 2 _ (fun t _ => flushed_eq V c t) cover

end Cert.KernelIdeal.Layer3

end
-- ==== Proof.Graph.lean ====
/-
  The graph convolution both programs compute, as functions of whole arrays on the extended reals.

  The graph side is shared text: the source and destination columns (the edge list followed by one self-loop per
  node), the edge weights (the given ones followed by 1 for each self-loop), the weighted in-degree of every node, its
  inverse square root where the degree is positive and 0 elsewhere, the normalised weight of every edge
  dinv[src] · w · dinv[dst], and one aggregation: gather the rows of a feature matrix at the edges' sources, scale each
  by its edge's weight, and add them up at the edges' destinations. Neither program's proof opens these: both apply
  them, and only their arguments are compared.

  The dense side is spelt twice. The host program multiplies by a dot_general, adds a bias vector through two
  broadcast_in_dims, rectifies by a maximum with a zero matrix (`hostLayers`). The kernel's regions compute, on whole
  arrays, the plain product, the product of the rectified biased rows, and the biased rows, with each bias kept as a
  one-row matrix (`layers`). Entry by entry the two are the same sums (`host_eq_layers`): a dot_general is the plain
  product, the vector broadcast to every row read at (r, g) is the reshaped row at (0, g), and the zero matrix read
  anywhere is the zero word.
-/
import proofs.«132572_j12412455485983_1_alg».proof.Proof.Gen.ReferenceIdeal
import proofs.«132572_j12412455485983_1_alg».proof.Proof.LibReluLayers
import proofs.«132572_j12412455485983_1_alg».proof.Proof.LibBiasRows

set_option maxRecDepth 16384

noncomputable section

namespace Cert.Gcn

open Cert.ReferenceIdeal Cert.ReferenceIdeal.Gen
open Idealize.ShloMosaic Idealize.ShloMosaic.ValueIdx
open Cert.SageLayers Cert.LayerForms Cert.GcnDense Cert.LibBiasRows

/-! ## The graph side -/

/-- The edges' sources: row 0 of the edge list, then every node once (its self-loop). -/
def srcOf (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destinations: row 1 of the edge list, then every node once. -/
def dstOf (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' weights: the given ones, then 1 for every self-loop. -/
def weightOf (ea : FVec Ideal S1600000 .f32) : FVec Ideal S1700000 .f32 :=
  concatenate S1700000 0 [⟨S1600000, ea⟩, ⟨S100000, (broadcastInDim S100000 ![] bcast_S_S100000 (constant (F := Ideal) S_ .f32 0x3F800000#32))⟩] concatenates_S1600000_S100000_S1700000_d0

/-- An index column: a vector of node numbers as the [E, 1] array a gather or a scatter takes. -/
def colOf (s : IVec S1700000 32) : IVec S1700000x1 32 :=
  broadcastInDim S1700000x1 ![0] bcast_S1700000_S1700000x1_0 s

/-- Node numbers with the negative ones counted from the end (the wrap-around of an indexing by an array). -/
def wrapOf (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- The weighted in-degree of every node: the weights added up at the edges' destinations. -/
def degOf (dst : IVec S1700000 32) (w : FVec Ideal S1700000 .f32) : FVec Ideal S100000 .f32 :=
  Host.scatterAdd scatter_S100000_S1700000x1_S1700000_n_0_0_1 (broadcastInDim S100000 ![] bcast_S_S100000 (constant (F := Ideal) S_ .f32 0x00000000#32)) (colOf dst) w

/-- deg^(-1/2) where the degree is positive, 0 elsewhere. -/
def dinvOf (deg : FVec Ideal S100000 .f32) : FVec Ideal S100000 .f32 :=
  select (cmpf .ogt deg (broadcastInDim S100000 ![] bcast_S_S100000 (constant (F := Ideal) S_ .f32 0x00000000#32))) (Host.powf deg (broadcastInDim S100000 ![] bcast_S_S100000 (constant (F := Ideal) S_ .f32 0xBF000000#32))) (broadcastInDim S100000 ![] bcast_S_S100000 (id (constant (F := Ideal) S_ .f32 0x00000000#32)))

/-- The normalised weight of every edge: dinv[src] · w · dinv[dst]. -/
def normOf (src dst : IVec S1700000 32) (w : FVec Ideal S1700000 .f32) : FVec Ideal S1700000 .f32 :=
  mulf (mulf (Host.gather gather_S100000_S1700000x1_S1700000_n_0_n_n_0_1_1 (dinvOf (degOf dst w)) (colOf (wrapOf src))) w) (Host.gather gather_S100000_S1700000x1_S1700000_n_0_n_n_0_1_1 (dinvOf (degOf dst w)) (colOf (wrapOf dst)))

/-- One aggregation of a 128-column feature matrix: the rows at the edges' sources, each scaled by its edge's weight,
    added up at the edges' destinations. -/
def agg128 (nrm : FVec Ideal S1700000 .f32) (src dst : IVec S1700000 32) (h : FVec Ideal S100000x128 .f32) : FVec Ideal S100000x128 .f32 :=
  Host.scatterAdd scatter_S100000x128_S1700000x1_S1700000x128_1_0_0_1 (broadcastInDim S100000x128 ![] bcast_S_S100000x128 (constant (F := Ideal) S_ .f32 0x00000000#32)) (colOf dst) (mulf (broadcastInDim S1700000x128 ![0, 1] bcast_S1700000x1_S1700000x128_0_1 (broadcastInDim S1700000x1 ![0] bcast_S1700000_S1700000x1_0 nrm)) (Host.gather gather_S100000x128_S1700000x1_S1700000x128_1_0_n_n_0_1_1128 h (colOf (wrapOf src))))

/-- The same aggregation of a 64-column feature matrix. -/
def agg64 (nrm : FVec Ideal S1700000 .f32) (src dst : IVec S1700000 32) (h : FVec Ideal S100000x64 .f32) : FVec Ideal S100000x64 .f32 :=
  Host.scatterAdd scatter_S100000x64_S1700000x1_S1700000x64_1_0_0_1 (broadcastInDim S100000x64 ![] bcast_S_S100000x64 (constant (F := Ideal) S_ .f32 0x00000000#32)) (colOf dst) (mulf (broadcastInDim S1700000x64 ![0, 1] bcast_S1700000x1_S1700000x64_0_1 (broadcastInDim S1700000x1 ![0] bcast_S1700000_S1700000x1_0 nrm)) (Host.gather gather_S100000x64_S1700000x1_S1700000x64_1_0_n_n_0_1_164 h (colOf (wrapOf src))))

/-! ## The three layers, in the host program's spelling and in the kernel's -/

/-- The host program's network: each layer a dot_general, an aggregation, the bias vector broadcast to every row and
    added; the first two layers rectified by a maximum with the zero matrix. -/
def hostLayers (nrm : FVec Ideal S1700000 .f32) (src dst : IVec S1700000 32) (x : FVec Ideal S100000x128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S100000x64 .f32 :=
  addf (agg64 nrm src dst (Host.dotGeneral dot_S100000x128_S128x64_S100000x64_1_0_0_1_n_n none (maximumf (addf (agg128 nrm src dst (Host.dotGeneral dot_S100000x128_S128x128_S100000x128_1_0_0_1_n_n none (maximumf (addf (agg128 nrm src dst (Host.dotGeneral dot_S100000x128_S128x128_S100000x128_1_0_0_1_n_n none x W1)) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) W2)) (broadcastInDim S100000x128 ![0, 1] bcast_S1x128_S100000x128_0_1 (broadcastInDim S1x128 ![1] bcast_S128_S1x128_1 b2))) (broadcastInDim S100000x128 ![] bcast_S_S100000x128 (constant (F := Ideal) S_ .f32 0x00000000#32))) W3)) (broadcastInDim S100000x64 ![0, 1] bcast_S1x64_S100000x64_0_1 (broadcastInDim S1x64 ![1] bcast_S64_S1x64_1 b3))

/-- The kernel's network on whole arrays: the plain product, twice an aggregation followed by the product of the
    rectified biased rows, a last aggregation and the output bias; each bias a one-row matrix. -/
def layers (nrm : FVec Ideal S1700000 .f32) (src dst : IVec S1700000 32) (x : FVec Ideal S100000x128 .f32)
    (W1 : FVec Ideal S128x128 .f32) (r1 : FVec Ideal S1x128 .f32) (W2 : FVec Ideal S128x128 .f32) (r2 : FVec Ideal S1x128 .f32)
    (W3 : FVec Ideal S128x64 .f32) (r3 : FVec Ideal S1x64 .f32) : FVec Ideal S100000x64 .f32 :=
  biasRows (R := 100000) (N := 64) (agg64 nrm src dst (prodLayer (R := 100000) (K := 128) (N := 64) (reluRows (R := 100000) (N := 128) (agg128 nrm src dst (prodLayer (R := 100000) (K := 128) (N := 128) (reluRows (R := 100000) (N := 128) (agg128 nrm src dst (prodLayer (R := 100000) (K := 128) (N := 128) x W1)) r1) W2)) r2) W3)) r3

/-- The host's first product is the plain product. -/
theorem host_prod128 (H : FVec Ideal S100000x128 .f32) (W : FVec Ideal S128x128 .f32) :
    Host.dotGeneral dot_S100000x128_S128x128_S100000x128_1_0_0_1_n_n none H W
      = prodLayer (R := 100000) (K := 128) (N := 128) H W :=
  (prod_host (R := 100000) (K := 128) (N := 128) H W).symm

/-- The host's last product is the plain product. -/
theorem host_prod64 (H : FVec Ideal S100000x128 .f32) (W : FVec Ideal S128x64 .f32) :
    Host.dotGeneral dot_S100000x128_S128x64_S100000x64_1_0_0_1_n_n none H W
      = prodLayer (R := 100000) (K := 128) (N := 64) H W :=
  (prod_host (R := 100000) (K := 128) (N := 64) H W).symm

/-- The host's rectified biased matrix is the rectified biased rows with the bias vector reshaped to a row. -/
theorem host_relu128 (A : FVec Ideal S100000x128 .f32) (b : FVec Ideal S128 .f32) (hc : S128.ShapeCasts S1x128) :
    maximumf (addf A (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))
      = reluRows (R := 100000) (N := 128) A (shapeCast S1x128 b hc) :=
  (relu_rows_host (R := 100000) (N := 128) A b hc ![1] rfl bcast_S128_S1x128_1 ![0, 1] rfl rfl
    bcast_S1x128_S100000x128_0_1 ![] bcast_S_S100000x128).symm

/-- The host's output bias is the biased rows with the bias vector reshaped to a row. -/
theorem host_bias64 (A : FVec Ideal S100000x64 .f32) (b : FVec Ideal S64 .f32) (hc : S64.ShapeCasts S1x64) :
    addf A (broadcastInDim S100000x64 ![0, 1] bcast_S1x64_S100000x64_0_1 (broadcastInDim S1x64 ![1] bcast_S64_S1x64_1 b))
      = biasRows (R := 100000) (N := 64) A (shapeCast S1x64 b hc) :=
  (host_biasRows (R := 100000) (N := 64) A b hc ![1] rfl bcast_S64_S1x64_1 ![0, 1] rfl rfl bcast_S1x64_S100000x64_0_1).symm

/-- The two spellings of the network are one function of the arrays. -/
theorem host_eq_layers (nrm : FVec Ideal S1700000 .f32) (src dst : IVec S1700000 32) (x : FVec Ideal S100000x128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) (hc : S128.ShapeCasts S1x128) (hc' : S64.ShapeCasts S1x64) :
    hostLayers nrm src dst x W1 b1 W2 b2 W3 b3
      = layers nrm src dst x W1 (shapeCast S1x128 b1 hc) W2 (shapeCast S1x128 b2 hc) W3 (shapeCast S1x64 b3 hc') := by
  unfold hostLayers layers
  rw [host_prod128 x W1, host_relu128 _ b1 hc, host_prod128 _ W2, host_relu128 _ b2 hc, host_prod64 _ W3,
    host_bias64 _ b3 hc']

end Cert.Gcn

end
-- ==== Proof.Stretches.lean ====
/-
  The kernel program's stretches of host operations, each read at the buffers the next region takes, from ANY contents
  `U` of the buffers before the stretch.

  The first stretch (three lists of operations) builds the graph side from the edge list and the edge weights: the
  source and destination columns and the normalised edge weights. Each later stretch is one aggregation of the previous
  region's output — gather at the sources, scale by the edge weights, add up at the destinations — and the reshape of
  the next bias vector to a one-row matrix. The operations are the host program's own, so each stretch's result is the
  shared graph function of what it reads; and a stretch leaves alone every buffer it does not write: the graph side's
  three arrays and the argument arrays pass through the later stretches unchanged.
-/
import proofs.«132572_j12412455485983_1_alg».proof.Proof.Gen.KernelIdeal.Launch
import proofs.«132572_j12412455485983_1_alg».proof.Proof.Graph

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

variable (U : Valuation τ sig (Elt Ideal))

/-! ## The graph side, from the edge list and the edge weights -/

/-- After the first stretch the source column is the edge list's row 0 followed by the nodes. -/
theorem src_eq : after hostOps0_2 (after hostOps0_1 (after hostOps0 U)) (Proc.devRef .tc main_v3)
    = Cert.Gcn.srcOf (U (Proc.devRef .tc main_arg1)) := by
  dsimp only [hostOps0_2, hostOps0_1, hostOps0]
  after_results_simp <;> rfl

/-- After the first stretch the destination column is the edge list's row 1 followed by the nodes. -/
theorem dst_eq : after hostOps0_2 (after hostOps0_1 (after hostOps0 U)) (Proc.devRef .tc main_v6)
    = Cert.Gcn.dstOf (U (Proc.devRef .tc main_arg1)) := by
  dsimp only [hostOps0_2, hostOps0_1, hostOps0]
  after_results_simp <;> rfl

/-! The normalised edge weights, list by list: the first list leaves the weights, the degree's comparison with 0 and
    its power -1/2; the second (an outlined `where`) selects between the power and 0; the third gathers that at the
    sources and at the destinations and multiplies. -/

/-- After the first list: the edge weights with the self-loops' ones appended. -/
theorem weights_first : after hostOps0 U (Proc.devRef .tc main_v8)
    = Cert.Gcn.weightOf (U (Proc.devRef .tc main_arg2)) := by
  dsimp only [hostOps0]
  after_results_simp <;> rfl

/-- After the first list: where the weighted in-degree is positive. -/
theorem positive_first : after hostOps0 U (Proc.devRef .tc main_v13)
    = cmpf .ogt (Cert.Gcn.degOf (Cert.Gcn.dstOf (U (Proc.devRef .tc main_arg1))) (Cert.Gcn.weightOf (U (Proc.devRef .tc main_arg2))))
        (broadcastInDim Cert.ReferenceIdeal.S100000 ![] Cert.ReferenceIdeal.Gen.bcast_S_S100000
          (constant (F := Ideal) Cert.ReferenceIdeal.S_ .f32 0x00000000#32)) := by
  dsimp only [hostOps0]
  after_results_simp <;> rfl

/-- After the first list: the weighted in-degree to the power -1/2. -/
theorem power_first : after hostOps0 U (Proc.devRef .tc main_v15)
    = Host.powf (Cert.Gcn.degOf (Cert.Gcn.dstOf (U (Proc.devRef .tc main_arg1))) (Cert.Gcn.weightOf (U (Proc.devRef .tc main_arg2))))
        (broadcastInDim Cert.ReferenceIdeal.S100000 ![] Cert.ReferenceIdeal.Gen.bcast_S_S100000
          (constant (F := Ideal) Cert.ReferenceIdeal.S_ .f32 0xBF000000#32)) := by
  dsimp only [hostOps0]
  after_results_simp <;> rfl

/-- After the first list: the zero the `where` falls back to. -/
theorem zero_first : after hostOps0 U (Proc.devRef .tc main_cst_3)
    = constant (F := Ideal) Cert.ReferenceIdeal.S_ .f32 0x00000000#32 := by
  dsimp only [hostOps0]
  after_results_simp <;> rfl

/-- The second list selects, node by node, between its two inputs. -/
theorem select_second : after hostOps0_1 U (Proc.devRef .tc main_v16)
    = select (U (Proc.devRef .tc main_v13)) (U (Proc.devRef .tc main_v15))
        (broadcastInDim Cert.ReferenceIdeal.S100000 ![] Cert.ReferenceIdeal.Gen.bcast_S_S100000 (id (U (Proc.devRef .tc main_cst_3)))) := by
  dsimp only [hostOps0_1]
  after_results_simp <;> rfl

/-- After the first two lists: deg^(-1/2) where the degree is positive, 0 elsewhere. -/
theorem dinv_second : after hostOps0_1 (after hostOps0 U) (Proc.devRef .tc main_v16)
    = Cert.Gcn.dinvOf (Cert.Gcn.degOf (Cert.Gcn.dstOf (U (Proc.devRef .tc main_arg1))) (Cert.Gcn.weightOf (U (Proc.devRef .tc main_arg2)))) := by
  refine (select_second (after hostOps0 U)).trans ?_
  rw [positive_first U, power_first U, zero_first U]
  rfl

/-- After the first two lists the source column, the destination column and the weights are as the first left them. -/
theorem src_second : after hostOps0_1 (after hostOps0 U) (Proc.devRef .tc main_v3)
    = Cert.Gcn.srcOf (U (Proc.devRef .tc main_arg1)) := by
  dsimp only [hostOps0_1, hostOps0]
  after_results_simp <;> rfl
theorem dst_second : after hostOps0_1 (after hostOps0 U) (Proc.devRef .tc main_v6)
    = Cert.Gcn.dstOf (U (Proc.devRef .tc main_arg1)) := by
  dsimp only [hostOps0_1, hostOps0]
  after_results_simp <;> rfl
theorem weights_second : after hostOps0_1 (after hostOps0 U) (Proc.devRef .tc main_v8)
    = Cert.Gcn.weightOf (U (Proc.devRef .tc main_arg2)) := by
  dsimp only [hostOps0_1, hostOps0]
  after_results_simp <;> rfl

/-- The third list: the per-node factor gathered at the sources, times the weight, times the factor gathered at the
    destinations. -/
theorem product_third : after hostOps0_2 U (Proc.devRef .tc main_v32)
    = mulf (F := Ideal) (φ := .f32) (mulf (F := Ideal) (φ := .f32) (Host.gather Cert.ReferenceIdeal.gather_S100000_S1700000x1_S1700000_n_0_n_n_0_1_1 (U (Proc.devRef .tc main_v16))
          (Cert.Gcn.colOf (Cert.Gcn.wrapOf (U (Proc.devRef .tc main_v3))))) (U (Proc.devRef .tc main_v8)))
        (Host.gather Cert.ReferenceIdeal.gather_S100000_S1700000x1_S1700000_n_0_n_n_0_1_1 (U (Proc.devRef .tc main_v16))
          (Cert.Gcn.colOf (Cert.Gcn.wrapOf (U (Proc.devRef .tc main_v6))))) := by
  dsimp only [hostOps0_2]
  after_results_simp <;> rfl

/-- After the first stretch the edge weights are the normalised ones. -/
theorem norm_eq : after hostOps0_2 (after hostOps0_1 (after hostOps0 U)) (Proc.devRef .tc main_v32)
    = Cert.Gcn.normOf (Cert.Gcn.srcOf (U (Proc.devRef .tc main_arg1))) (Cert.Gcn.dstOf (U (Proc.devRef .tc main_arg1)))
        (Cert.Gcn.weightOf (U (Proc.devRef .tc main_arg2))) := by
  refine (product_third (after hostOps0_1 (after hostOps0 U))).trans ?_
  rw [dinv_second U, src_second U, dst_second U, weights_second U]
  rfl

/-- The first stretch writes no argument array. -/
theorem first_keeps (b : Ref sig .tc)
    (hb : b ∈ [main_arg0, main_arg3, main_arg4, main_arg5, main_arg6, main_arg7, main_arg8]) :
    after hostOps0_2 (after hostOps0_1 (after hostOps0 U)) (Proc.devRef .tc b) = U (Proc.devRef .tc b) := by
  simp only [List.mem_cons, List.not_mem_nil, or_false] at hb
  rcases hb with rfl | rfl | rfl | rfl | rfl | rfl | rfl <;>
    (dsimp only [hostOps0_2, hostOps0_1, hostOps0]; after_results_simp <;> rfl)

/-! ## The stretch before region 1 -/

/-- Region 1's row input: the aggregation of region 0's output. -/
theorem agg1 : after hostOps1 U (Proc.devRef .tc main_v46)
    = Cert.Gcn.agg128 (U (Proc.devRef .tc main_v32)) (U (Proc.devRef .tc main_v3)) (U (Proc.devRef .tc main_v6))
        (U (Proc.devRef .tc main_v33)) := by
  dsimp only [hostOps1]
  after_results_simp <;> rfl

/-- Region 1's bias input: the first bias vector as a one-row matrix. -/
theorem row1 : after hostOps1 U (Proc.devRef .tc main_v47)
    = shapeCast S1x128 (U (Proc.devRef .tc main_arg4)) shapeCasts_S128_S1x128 := by
  dsimp only [hostOps1]
  after_results_simp <;> rfl

/-- The stretch writes neither the graph side's arrays nor an argument array. -/
theorem keeps1 (b : Ref sig .tc)
    (hb : b ∈ [main_v32, main_v3, main_v6, main_arg4, main_arg5, main_arg6, main_arg7, main_arg8]) :
    after hostOps1 U (Proc.devRef .tc b) = U (Proc.devRef .tc b) := by
  simp only [List.mem_cons, List.not_mem_nil, or_false] at hb
  rcases hb with rfl | rfl | rfl | rfl | rfl | rfl | rfl | rfl <;>
    (dsimp only [hostOps1]; after_results_simp <;> rfl)

/-! ## The stretch before region 2 -/

/-- Region 2's row input: the aggregation of region 1's output. -/
theorem agg2 : after hostOps2 U (Proc.devRef .tc main_v61)
    = Cert.Gcn.agg128 (U (Proc.devRef .tc main_v32)) (U (Proc.devRef .tc main_v3)) (U (Proc.devRef .tc main_v6))
        (U (Proc.devRef .tc main_v48)) := by
  dsimp only [hostOps2]
  after_results_simp <;> rfl

/-- Region 2's bias input: the second bias vector as a one-row matrix. -/
theorem row2 : after hostOps2 U (Proc.devRef .tc main_v62)
    = shapeCast S1x128 (U (Proc.devRef .tc main_arg6)) shapeCasts_S128_S1x128 := by
  dsimp only [hostOps2]
  after_results_simp <;> rfl

/-- The stretch writes neither the graph side's arrays nor an argument array. -/
theorem keeps2 (b : Ref sig .tc)
    (hb : b ∈ [main_v32, main_v3, main_v6, main_arg4, main_arg5, main_arg6, main_arg7, main_arg8]) :
    after hostOps2 U (Proc.devRef .tc b) = U (Proc.devRef .tc b) := by
  simp only [List.mem_cons, List.not_mem_nil, or_false] at hb
  rcases hb with rfl | rfl | rfl | rfl | rfl | rfl | rfl | rfl <;>
    (dsimp only [hostOps2]; after_results_simp <;> rfl)

/-! ## The stretch before region 3 -/

/-- Region 3's row input: the aggregation of region 2's output. -/
theorem agg3 : after hostOps3 U (Proc.devRef .tc main_v76)
    = Cert.Gcn.agg64 (U (Proc.devRef .tc main_v32)) (U (Proc.devRef .tc main_v3)) (U (Proc.devRef .tc main_v6))
        (U (Proc.devRef .tc main_v63)) := by
  dsimp only [hostOps3]
  after_results_simp <;> rfl

/-- Region 3's bias input: the output bias vector as a one-row matrix. -/
theorem row3 : after hostOps3 U (Proc.devRef .tc main_v77)
    = shapeCast S1x64 (U (Proc.devRef .tc main_arg8)) shapeCasts_S64_S1x64 := by
  dsimp only [hostOps3]
  after_results_simp <;> rfl

end Cert.KernelIdeal.Host

end
-- ==== Proof.KernelValue.lean ====
/-
  The idealized kernel's result array as ONE function of the launch memory's argument arrays.

  Follow the arrays through @main's ten segments. The first stretch of host operations leaves the graph side — the
  source and destination columns and the normalised edge weights, functions of the edge list and the edge weights alone
  — in three buffers that nothing later writes; nothing ever writes an argument array. Region 0 leaves x · W1 in its
  output; each later stretch aggregates the previous region's output over the edges and reshapes the next bias to a
  row; regions 1 and 2 leave max(a + b, 0) · W of what they find in their windows' arrays; region 3 leaves a + b. Each
  region's output is stated for ANY entry contents, each stretch's result for ANY contents before it, so the chain is a
  substitution of one into the next, and the result array ends holding the kernel's arrangement of the network
  (`Cert.Gcn.layers`) of the arguments as launched.
-/
import proofs.«132572_j12412455485983_1_alg».proof.Proof.KernelRun
import proofs.«132572_j12412455485983_1_alg».proof.Proof.Region0
import proofs.«132572_j12412455485983_1_alg».proof.Proof.Region1
import proofs.«132572_j12412455485983_1_alg».proof.Proof.Region2
import proofs.«132572_j12412455485983_1_alg».proof.Proof.Region3
import proofs.«132572_j12412455485983_1_alg».proof.Proof.Stretches

set_option maxRecDepth 16384

noncomputable section

namespace Cert.KernelIdeal.Net

open Cert.KernelIdeal Cert.KernelIdeal.Gen
open Idealize.ShloMosaic Idealize.ShloMosaic.TcCoe Idealize.SL.Sem
open Cert.SageLayers Cert.LayerForms Cert.GcnDense Cert.LibBiasRows

variable (m : (ℓ : Loc nD τ sig) → Buf (Elt Ideal) ℓ) (ρ : Dev nD → PrngReg) (c : Dev nD)

/-! ## The arrays the chain passes through, as functions of the launch memory -/

/-- The edges' sources. -/
def src : IVec Cert.ReferenceIdeal.S1700000 32 := Cert.Gcn.srcOf (m ((c : Thread nD τ).loc main_arg1))
/-- The edges' destinations. -/
def dst : IVec Cert.ReferenceIdeal.S1700000 32 := Cert.Gcn.dstOf (m ((c : Thread nD τ).loc main_arg1))
/-- The normalised edge weights. -/
def nrm : FVec Ideal Cert.ReferenceIdeal.S1700000 .f32 :=
  Cert.Gcn.normOf (src m c) (dst m c) (Cert.Gcn.weightOf (m ((c : Thread nD τ).loc main_arg2)))
/-- x · W1. -/
def feat1 : FVec Ideal Cert.ReferenceIdeal.S100000x128 .f32 :=
  prodLayer (R := 100000) (K := 128) (N := 128) (m ((c : Thread nD τ).loc main_arg0)) (m ((c : Thread nD τ).loc main_arg3))
/-- Its aggregation over the edges. -/
def gath1 : FVec Ideal Cert.ReferenceIdeal.S100000x128 .f32 := Cert.Gcn.agg128 (nrm m c) (src m c) (dst m c) (feat1 m c)
/-- max(· + b1, 0) · W2. -/
def feat2 : FVec Ideal Cert.ReferenceIdeal.S100000x128 .f32 :=
  prodLayer (R := 100000) (K := 128) (N := 128)
    (reluRows (R := 100000) (N := 128) (gath1 m c) (shapeCast S1x128 (m ((c : Thread nD τ).loc main_arg4)) shapeCasts_S128_S1x128))
    (m ((c : Thread nD τ).loc main_arg5))
/-- Its aggregation over the edges. -/
def gath2 : FVec Ideal Cert.ReferenceIdeal.S100000x128 .f32 := Cert.Gcn.agg128 (nrm m c) (src m c) (dst m c) (feat2 m c)
/-- max(· + b2, 0) · W3. -/
def feat3 : FVec Ideal Cert.ReferenceIdeal.S100000x64 .f32 :=
  prodLayer (R := 100000) (K := 128) (N := 64)
    (reluRows (R := 100000) (N := 128) (gath2 m c) (shapeCast S1x128 (m ((c : Thread nD τ).loc main_arg6)) shapeCasts_S128_S1x128))
    (m ((c : Thread nD τ).loc main_arg7))
/-- Its aggregation over the edges. -/
def gath3 : FVec Ideal Cert.ReferenceIdeal.S100000x64 .f32 := Cert.Gcn.agg64 (nrm m c) (src m c) (dst m c) (feat3 m c)
/-- · + b3: the network's output. -/
def out : FVec Ideal Cert.ReferenceIdeal.S100000x64 .f32 :=
  biasRows (R := 100000) (N := 64) (gath3 m c) (shapeCast S1x64 (m ((c : Thread nD τ).loc main_arg8)) shapeCasts_S64_S1x64)

/-- The chain's last array is the kernel's arrangement of the network, of the arguments as launched. -/
theorem out_eq_layers : out m c
    = Cert.Gcn.layers (nrm m c) (src m c) (dst m c) (m ((c : Thread nD τ).loc main_arg0)) (m ((c : Thread nD τ).loc main_arg3))
        (shapeCast S1x128 (m ((c : Thread nD τ).loc main_arg4)) shapeCasts_S128_S1x128) (m ((c : Thread nD τ).loc main_arg5))
        (shapeCast S1x128 (m ((c : Thread nD τ).loc main_arg6)) shapeCasts_S128_S1x128) (m ((c : Thread nD τ).loc main_arg7))
        (shapeCast S1x64 (m ((c : Thread nD τ).loc main_arg8)) shapeCasts_S64_S1x64) := rfl

/-! ## At region 0's entry: the graph side, and the arguments as launched -/

theorem entry_src : W3 m ρ c (Proc.devRef .tc main_v3) = src m c := Host.src_eq (W0 m ρ c)
theorem entry_dst : W3 m ρ c (Proc.devRef .tc main_v6) = dst m c := Host.dst_eq (W0 m ρ c)
theorem entry_nrm : W3 m ρ c (Proc.devRef .tc main_v32) = nrm m c := Host.norm_eq (W0 m ρ c)
theorem entry_arg (b : Ref sig .tc)
    (hb : b ∈ [main_arg0, main_arg3, main_arg4, main_arg5, main_arg6, main_arg7, main_arg8]) :
    W3 m ρ c (Proc.devRef .tc b) = m ((c : Thread nD τ).loc b) := Host.first_keeps (W0 m ρ c) b hb

/-! ## The graph side's arrays and the later arguments stay as region 0's entry has them, at every later boundary -/

theorem stay4 (b : Ref sig .tc) (hb : b ∈ [main_v32, main_v3, main_v6, main_arg4, main_arg5, main_arg6, main_arg7, main_arg8]) :
    W4 m ρ c (Proc.devRef .tc b) = W3 m ρ c (Proc.devRef .tc b) := by
  simp only [List.mem_cons, List.not_mem_nil, or_false] at hb
  rcases hb with rfl | rfl | rfl | rfl | rfl | rfl | rfl | rfl <;> exact W4_of_ne m ρ c _ (by decide)

theorem stay5 (b : Ref sig .tc) (hb : b ∈ [main_v32, main_v3, main_v6, main_arg4, main_arg5, main_arg6, main_arg7, main_arg8]) :
    W5 m ρ c (Proc.devRef .tc b) = W3 m ρ c (Proc.devRef .tc b) :=
  (Host.keeps1 (W4 m ρ c) b hb).trans (stay4 m ρ c b hb)

theorem stay6 (b : Ref sig .tc) (hb : b ∈ [main_v32, main_v3, main_v6, main_arg4, main_arg5, main_arg6, main_arg7, main_arg8]) :
    W6 m ρ c (Proc.devRef .tc b) = W3 m ρ c (Proc.devRef .tc b) := by
  refine Eq.trans ?_ (stay5 m ρ c b hb)
  simp only [List.mem_cons, List.not_mem_nil, or_false] at hb
  rcases hb with rfl | rfl | rfl | rfl | rfl | rfl | rfl | rfl
  case inr.inr.inr.inr.inl =>
    exact (W6_arr m ρ c 2).trans (((dat1 (V5 m ρ) c).arrAt_in 2 rfl _).trans (A_eq1 (V5 m ρ) c 2))
  all_goals exact W6_of_ne m ρ c _ (by decide)

theorem stay7 (b : Ref sig .tc) (hb : b ∈ [main_v32, main_v3, main_v6, main_arg4, main_arg5, main_arg6, main_arg7, main_arg8]) :
    W7 m ρ c (Proc.devRef .tc b) = W3 m ρ c (Proc.devRef .tc b) :=
  (Host.keeps2 (W6 m ρ c) b hb).trans (stay6 m ρ c b hb)

theorem stay8 (b : Ref sig .tc) (hb : b ∈ [main_v32, main_v3, main_v6, main_arg4, main_arg5, main_arg6, main_arg7, main_arg8]) :
    W8 m ρ c (Proc.devRef .tc b) = W3 m ρ c (Proc.devRef .tc b) := by
  refine Eq.trans ?_ (stay7 m ρ c b hb)
  simp only [List.mem_cons, List.not_mem_nil, or_false] at hb
  rcases hb with rfl | rfl | rfl | rfl | rfl | rfl | rfl | rfl
  case inr.inr.inr.inr.inr.inr.inl =>
    exact (W8_arr m ρ c 2).trans (((dat2 (V7 m ρ) c).arrAt_in 2 rfl _).trans (A_eq2 (V7 m ρ) c 2))
  all_goals exact W8_of_ne m ρ c _ (by decide)

/-! ## Region 0 and the stretch after it -/

theorem after0 : W4 m ρ c (Proc.devRef .tc main_v33) = feat1 m c := by
  refine (W4_arr m ρ c 2).trans ((Layer0.final (V3 m ρ) c).trans ?_)
  show prodLayer (W3 m ρ c (Proc.devRef .tc main_arg0)) (W3 m ρ c (Proc.devRef .tc main_arg3)) = _
  rw [entry_arg m ρ c main_arg0 (by decide), entry_arg m ρ c main_arg3 (by decide)]
  rfl

theorem rows1 : W5 m ρ c (Proc.devRef .tc main_v46) = gath1 m c := by
  refine (Host.agg1 (W4 m ρ c)).trans ?_
  rw [stay4 m ρ c main_v32 (by decide), stay4 m ρ c main_v3 (by decide), stay4 m ρ c main_v6 (by decide),
    entry_nrm m ρ c, entry_src m ρ c, entry_dst m ρ c, after0 m ρ c]
  rfl

theorem bias1 : W5 m ρ c (Proc.devRef .tc main_v47)
    = shapeCast S1x128 (m ((c : Thread nD τ).loc main_arg4)) shapeCasts_S128_S1x128 := by
  refine (Host.row1 (W4 m ρ c)).trans ?_
  rw [stay4 m ρ c main_arg4 (by decide), entry_arg m ρ c main_arg4 (by decide)]

theorem weights1 : W5 m ρ c (Proc.devRef .tc main_arg5) = m ((c : Thread nD τ).loc main_arg5) :=
  (stay5 m ρ c main_arg5 (by decide)).trans (entry_arg m ρ c main_arg5 (by decide))

/-! ## Region 1 and the stretch after it -/

theorem after1 : W6 m ρ c (Proc.devRef .tc main_v48) = feat2 m c := by
  refine (W6_arr m ρ c 3).trans ((Layer1.final (V5 m ρ) c).trans ?_)
  show prodLayer (reluRows (W5 m ρ c (Proc.devRef .tc main_v46)) (W5 m ρ c (Proc.devRef .tc main_v47)))
    (W5 m ρ c (Proc.devRef .tc main_arg5)) = _
  rw [rows1 m ρ c, bias1 m ρ c, weights1 m ρ c]
  rfl

theorem rows2 : W7 m ρ c (Proc.devRef .tc main_v61) = gath2 m c := by
  refine (Host.agg2 (W6 m ρ c)).trans ?_
  rw [stay6 m ρ c main_v32 (by decide), stay6 m ρ c main_v3 (by decide), stay6 m ρ c main_v6 (by decide),
    entry_nrm m ρ c, entry_src m ρ c, entry_dst m ρ c, after1 m ρ c]
  rfl

theorem bias2 : W7 m ρ c (Proc.devRef .tc main_v62)
    = shapeCast S1x128 (m ((c : Thread nD τ).loc main_arg6)) shapeCasts_S128_S1x128 := by
  refine (Host.row2 (W6 m ρ c)).trans ?_
  rw [stay6 m ρ c main_arg6 (by decide), entry_arg m ρ c main_arg6 (by decide)]

theorem weights2 : W7 m ρ c (Proc.devRef .tc main_arg7) = m ((c : Thread nD τ).loc main_arg7) :=
  (stay7 m ρ c main_arg7 (by decide)).trans (entry_arg m ρ c main_arg7 (by decide))

/-! ## Region 2 and the stretch after it -/

theorem after2 : W8 m ρ c (Proc.devRef .tc main_v63) = feat3 m c := by
  refine (W8_arr m ρ c 3).trans ((Layer2.final (V7 m ρ) c).trans ?_)
  show prodLayer (reluRows (W7 m ρ c (Proc.devRef .tc main_v61)) (W7 m ρ c (Proc.devRef .tc main_v62)))
    (W7 m ρ c (Proc.devRef .tc main_arg7)) = _
  rw [rows2 m ρ c, bias2 m ρ c, weights2 m ρ c]
  rfl

theorem rows3 : W9 m ρ c (Proc.devRef .tc main_v76) = gath3 m c := by
  refine (Host.agg3 (W8 m ρ c)).trans ?_
  rw [stay8 m ρ c main_v32 (by decide), stay8 m ρ c main_v3 (by decide), stay8 m ρ c main_v6 (by decide),
    entry_nrm m ρ c, entry_src m ρ c, entry_dst m ρ c, after2 m ρ c]
  rfl

theorem bias3 : W9 m ρ c (Proc.devRef .tc main_v77)
    = shapeCast S1x64 (m ((c : Thread nD τ).loc main_arg8)) shapeCasts_S64_S1x64 := by
  refine (Host.row3 (W8 m ρ c)).trans ?_
  rw [stay8 m ρ c main_arg8 (by decide), entry_arg m ρ c main_arg8 (by decide)]

/-! ## Region 3: the result array -/

theorem result_eq : W10 m ρ c (Proc.devRef .tc main_v78) = out m c := by
  refine (W10_arr m ρ c 2).trans ((Layer3.final (V9 m ρ) c).trans ?_)
  show biasRows (W9 m ρ c (Proc.devRef .tc main_v76)) (W9 m ρ c (Proc.devRef .tc main_v77)) = _
  rw [rows3 m ρ c, bias3 m ρ c]
  rfl

end Cert.KernelIdeal.Net

end
-- ==== Proof.RefValue.lean ====
/-
  The reference's result as the host program's network of the argument arrays: the composed term its run ends at is,
  once the shared graph functions and the three layers are unfolded, the same text — the source and destination
  columns, the weights, the normalised edge weights, and per layer a dot_general, an aggregation and a bias.
-/
import proofs.«132572_j12412455485983_1_alg».proof.Proof.Gen.ReferenceIdeal.Run
import proofs.«132572_j12412455485983_1_alg».proof.Proof.Graph

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Gcn

/-- The network of a memory's argument arrays, in the host program's spelling. -/
def hostNet (m : (ℓ : Loc nD τ sig) → Buf (Elt Ideal) ℓ) (c : Dev nD) : FVec Ideal S100000x64 .f32 :=
  hostLayers
    (normOf (srcOf (m ((c.tc : Thread nD τ).loc main_arg1))) (dstOf (m ((c.tc : Thread nD τ).loc main_arg1)))
      (weightOf (m ((c.tc : Thread nD τ).loc main_arg2))))
    (srcOf (m ((c.tc : Thread nD τ).loc main_arg1))) (dstOf (m ((c.tc : Thread nD τ).loc main_arg1)))
    (m ((c.tc : Thread nD τ).loc main_arg0)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-- The run's composed term is that network. -/
theorem result_eq (m : (ℓ : Loc nD τ sig) → Buf (Elt Ideal) ℓ) (c : Dev nD) :
    res_main_v85 (F := Ideal) m c = hostNet m c := by
  unfold res_main_v85 hostNet hostLayers agg64 agg128 normOf dinvOf degOf wrapOf colOf weightOf dstOf srcOf
  rfl

end Cert.ReferenceIdeal.RefValue

end
-- ==== Proof.lean ====
/-
  The certificate: a three-layer graph convolution whose dense stages run as four pipelined kernels, against the same
  network written as one host program.

  Both programs build the graph side with the same host operations — self-loops appended to the edge list, the weighted
  in-degree, its inverse square root, the normalised edge weights — and aggregate with the same gather, scale and
  scatter-add; they differ only in the dense stages. The kernel computes x · W1, then twice max(a + b, 0) · W on the
  aggregated features, then a + b, each on blocks of 2000 rows with the factors narrowed to bf16 and the biases kept as
  one-row matrices; the host program computes dot_generals, adds bias vectors broadcast to every row, and rectifies by a
  maximum with the zero matrix. On the extended reals a change of float format is the identity, both products are the
  same finite sums, and a layer's row depends on one row of its input, so the blocks tile each whole layer. No law of
  arithmetic beyond that is used, and the precondition (finite inputs) is never opened: the two results are the same
  expression of the arguments, infinite or not.

  The frames of the two kernel programs are the generated ones; the reference's is its generated run with the result
  dropped; the ideal pass rewrote nothing, so `preserves` is trivial. For `algebraic`, the kernel's run ends with its
  result array at `Cert.KernelIdeal.Net.out` (the chain through the ten segments), the reference's at
  `Cert.ReferenceIdeal.RefValue.hostNet`, and `Cert.Gcn.host_eq_layers` joins them once the memories' agreement on the
  arguments is rewritten.
-/
import proofs.«132572_j12412455485983_1_alg».proof.Defs
import proofs.«132572_j12412455485983_1_alg».proof.Proof.Gen.Kernel
import proofs.«132572_j12412455485983_1_alg».proof.Proof.Gen.Kernel.Frame
import proofs.«132572_j12412455485983_1_alg».proof.Proof.Gen.KernelIdeal
import proofs.«132572_j12412455485983_1_alg».proof.Proof.Gen.KernelIdeal.Frame
import proofs.«132572_j12412455485983_1_alg».proof.Proof.Gen.ReferenceIdeal
import proofs.«132572_j12412455485983_1_alg».proof.Proof.Gen.ReferenceIdeal.Run
import proofs.«132572_j12412455485983_1_alg».proof.Proof.Gen.Pre_finite_inputs
import proofs.«132572_j12412455485983_1_alg».proof.Proof.KernelValue
import proofs.«132572_j12412455485983_1_alg».proof.Proof.RefValue

noncomputable section

namespace Cert.Proof

open Idealize.ShloMosaic Idealize.SL.Sem

/-- The printed kernel runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the network of the arguments in their result arrays: the kernel's arrangement of
    it and the host program's are one function, and the memories agree on the arguments. -/
theorem algebraic : Cert.algebraic_KernelIdeal_ReferenceIdeal := by
  intro m ρ m' ρ' _ hagree
  refine ⟨fun c => Cert.KernelIdeal.Net.out m c, ?_, ?_⟩
  · exact (θ_run Cert.KernelIdeal.defs _ _).mono
      (fun r h c => ⟨(h c).1.trans (Cert.KernelIdeal.Net.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v85 m' c = Cert.KernelIdeal.Net.out m c
    rw [Cert.ReferenceIdeal.RefValue.result_eq, Cert.KernelIdeal.Net.out_eq_layers]
    unfold Cert.ReferenceIdeal.RefValue.hostNet
    obtain ⟨h0, h1, h2, h3, h4, h5, h6, h7, h8⟩ := hagree c
    rw [h0, h1, h2, h3, h4, h5, h6, h7, h8]
    exact Cert.Gcn.host_eq_layers _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
